-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x512x256 : Shape := ⟨3, ![512, 512, 256]⟩
abbrev S256x256 : Shape := ⟨2, ![256, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512x512x256 : S_.BroadcastsInDim S512x512x256 (![] : Fin 0 → Fin S512x512x256.rank)
  reducesTo_S512x512x256_S_d0_1_2 : S512x512x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S512x256 .f32) (main_arg1 : FVec F S512x512x256 .f32) (main_arg2 : FVec F S512x512x256 .f32) (main_arg3 : FVec F S256x256 .f32) (main_arg4 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x512x256 .f32 := Host.absf main_arg1
  let main_cst_0 : FVec F S_ .f32 := constant S_ .f32 0x7F800000#32
  let main_v5 : FVec F S512x512x256 .f32 := broadcastInDim S512x512x256 ![] bcast_S_S512x512x256 main_cst_0
  let main_v6 : IVec S512x512x256 1 := cmpf .olt main_v4 main_v5
  let main_c_1 : IVec S_ 1 := constantI S_ 1 1#1
  let main_v7 : IVec S_ 1 := (fun x v => Host.reduce IntOp.andi x v reducesTo_S512x512x256_S_d0_1_2 h_S_) main_v6 main_c_1
  let main_v8 : IVec S_ 1 := andi main_v3 main_v7
  let main_v9 : FVec F S512x512x256 .f32 := Host.absf main_arg2
  let main_cst_2 : FVec F S_ .f32 := constant S_ .f32 0x7F800000#32
  let main_v10 : FVec F S512x512x256 .f32 := broadcastInDim S512x512x256 ![] bcast_S_S512x512x256 main_cst_2
  let main_v11 : IVec S512x512x256 1 := cmpf .olt main_v9 main_v10
  let main_c_3 : IVec S_ 1 := constantI S_ 1 1#1
  let main_v12 : IVec S_ 1 := (fun x v => Host.reduce IntOp.andi x v reducesTo_S512x512x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S512x256 : Shape := ⟨2, ![512, 256]⟩
abbrev S512x512x256 : Shape := ⟨3, ![512, 512, 256]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S64x256 : Shape := ⟨2, ![64, 256]⟩
abbrev S128x64x256 : Shape := ⟨3, ![128, 64, 256]⟩
abbrev S1x1x256 : Shape := ⟨3, ![1, 1, 256]⟩
abbrev S64x64x256 : Shape := ⟨3, ![64, 64, 256]⟩
abbrev S64x1x256 : Shape := ⟨3, ![64, 1, 256]⟩
abbrev S1x64x256 : Shape := ⟨3, ![1, 64, 256]⟩
abbrev S4096x256 : Shape := ⟨2, ![4096, 256]⟩

abbrev nBuf : Space → Nat
  | .hbm => 7
  | .vmem => 12
  | .smem => 0
  | _ => 0

abbrev bufTy : (tb : Table) → Fin (tcTables nBuf tb) → BufTy
  | .hbm, ⟨0, _⟩ => ⟨S512x256, .f32⟩
  | .hbm, ⟨1, _⟩ => ⟨S512x512x256, .f32⟩
  | .hbm, ⟨2, _⟩ => ⟨S512x512x256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S512x512x256, .f32⟩
  | .local _ .vmem, ⟨0, _⟩ => ⟨S128x256, .f32⟩
  | .local _ .vmem, ⟨1, _⟩ => ⟨S128x256, .f32⟩
  | .local _ .vmem, ⟨2, _⟩ => ⟨S64x256, .f32⟩
  | .local _ .vmem, ⟨3, _⟩ => ⟨S64x256, .f32⟩
  | .local _ .vmem, ⟨4, _⟩ => ⟨S128x64x256, .f32⟩
  | .local _ .vmem, ⟨5, _⟩ => ⟨S128x64x256, .f32⟩
  | .local _ .vmem, ⟨6, _⟩ => ⟨S128x64x256, .f32⟩
  | .local _ .vmem, ⟨7, _⟩ => ⟨S128x64x256, .f32⟩
  | .local _ .vmem, ⟨8, _⟩ => ⟨S256x256, .f32⟩
  | .local _ .vmem, ⟨9, _⟩ => ⟨S1x256, .f32⟩
  | .local _ .vmem, ⟨10, _⟩ => ⟨S128x64x256, .f32⟩
  | .local _ .vmem, ⟨11, _⟩ => ⟨S128x64x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c64_i32 : BitVec 32 := 64#32
  let v5 : BitVec 32 := Scalar.muli c0_i32 c64_i32
  v5
def k0_off1 (c0_i32 : BitVec 32) : Fin 2 → Nat :=
  let c64_i32 : BitVec 32 := 64#32
  let v5 : BitVec 32 := Scalar.muli c0_i32 c64_i32
  let v6 : BitVec 32 := v5
  let v7 : Index := Scalar.indexCast v6
  let c0_5 : Index := 0#32
  ![v7.toNat, 0]
def k0_off2 (c0_i32 : BitVec 32) : Fin 3 → Nat :=
  let c64_i32 : BitVec 32 := 64#32
  let v5 : BitVec 32 := Scalar.muli c0_i32 c64_i32
  let v6 : BitVec 32 := v5
  let v9 : Index := Scalar.indexCast v6
  let c0_6 : Index := 0#32
  let c0_7 : Index := 0#32
  ![v9.toNat, 0, 0]
def k0_mult2 : BitVec 32 :=
  let c1_i32 : BitVec 32 := 1#32
  let c64_i32_12 : BitVec 32 := 64#32
  let v27 : BitVec 32 := Scalar.muli c1_i32 c64_i32_12
  v27
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S256_S1x256 : S256.ShapeCasts S1x256
  inb_S64x256_S64x256_0_0 : ∀ a, (![0, 0] : Fin 2 → Nat) a + S64x256.size a ≤ S64x256.size a
  h_S64x256 : 0 < S64x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  h_S64x64x256 : 0 < S64x64x256.numel
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  shapeCasts_S64x64x256_S4096x256 : S64x64x256.ShapeCasts S4096x256
  shapeCasts_S4096x256_S64x64x256 : S4096x256.ShapeCasts S64x64x256
  broadcasts_S1x1x256_S64x64x256 : S1x1x256.Broadcasts S64x64x256
  dot_S4096x256_S256x256_S4096x256_1_1_0_0_n_n_wf : DotDims.WF S4096x256 S256x256 S4096x256 [1] [1] [0] [0] [] []
  hrank0 : 0 < grid0.rank
  k0_mult1_dvd : 64 ∣ k0_mult1.toNat
  k0_off1_inb : ∀ (r : Fin 2), ∀ a, (k0_off1 (BitVec.ofNat 32 r.val)) a + S64x256.size a ≤ S128x256.size a
  k0_off2_inb : ∀ (r : Fin 2), ∀ a, (k0_off2 (BitVec.ofNat 32 r.val)) a + S64x64x256.size a ≤ S128x64x256.size a
  k0_mult2_dvd : 64 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S512x256.size a
  hwx0_0 : ∀ i : grid0.Coords, EltTy.bits .f32 = 32 ∨ (Rect.block (s := S512x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S512x256.size a
  hwx0_1 : ∀ i : grid0.Coords, EltTy.bits .f32 = 32 ∨ (Rect.block (s := S512x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x256.size a ≤ S512x512x256.size a
  hwx0_2 : ∀ i : grid0.Coords, EltTy.bits .f32 = 32 ∨ (Rect.block (s := S512x512x256) S128x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x256.size a ≤ S512x512x256.size a
  hwx0_3 : ∀ i : grid0.Coords, EltTy.bits .f32 = 32 ∨ (Rect.block (s := S512x512x256) S128x64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x64x256.size a ≤ S512x512x256.size a
  hwx0_6 : ∀ i : grid0.Coords, EltTy.bits .f32 = 32 ∨ (Rect.block (s := S512x512x256) S128x64x256.size (cc0_transform_6 i) (hinb0_6 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x256 : Shape := ⟨2, ![512, 256]⟩
abbrev S512x512x256 : Shape := ⟨3, ![512, 512, 256]⟩
abbrev S256x256 : Shape := ⟨2, ![256, 256]⟩
abbrev S256 : Shape := ⟨1, ![256]⟩
abbrev S512x1x256 : Shape := ⟨3, ![512, 1, 256]⟩
abbrev S1x512x256 : Shape := ⟨3, ![1, 512, 256]⟩
abbrev S1x1x256 : Shape := ⟨3, ![1, 1, 256]⟩

abbrev nBuf : Space → Nat
  | .hbm => 16
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x512x256, .f32⟩
  | .hbm, ⟨2, _⟩ => ⟨S512x512x256, .f32⟩
  | .hbm, ⟨3, _⟩ => ⟨S256x256, .f32⟩
  | .hbm, ⟨4, _⟩ => ⟨S256, .f32⟩
  | .hbm, ⟨5, _⟩ => ⟨S512x1x256, .f32⟩
  | .hbm, ⟨6, _⟩ => ⟨S1x512x256, .f32⟩
  | .hbm, ⟨7, _⟩ => ⟨S512x512x256, .f32⟩
  | .hbm, ⟨8, _⟩ => ⟨S512x512x256, .f32⟩
  | .hbm, ⟨9, _⟩ => ⟨S512x512x256, .f32⟩
  | .hbm, ⟨10, _⟩ => ⟨S512x512x256, .f32⟩
  | .hbm, ⟨11, _⟩ => ⟨S512x512x256, .f32⟩
  | .hbm, ⟨12, _⟩ => ⟨S1x1x256, .f32⟩
  | .hbm, ⟨13, _⟩ => ⟨S512x512x256, .f32⟩
  | .hbm, ⟨14, _⟩ => ⟨S512x512x256, .f32⟩
  | .hbm, ⟨15, _⟩ => ⟨S512x512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S512x256_S512x1x256_0_2 : S512x256.BroadcastsInDim S512x1x256 (![0, 2] : Fin 2 → Fin S512x1x256.rank)
  bcast_S512x256_S1x512x256_1_2 : S512x256.BroadcastsInDim S1x512x256 (![1, 2] : Fin 2 → Fin S1x512x256.rank)
  bcast_S512x1x256_S512x512x256_0_1_2 : S512x1x256.BroadcastsInDim S512x512x256 (![0, 1, 2] : Fin 3 → Fin S512x512x256.rank)
  bcast_S1x512x256_S512x512x256_0_1_2 : S1x512x256.BroadcastsInDim S512x512x256 (![0, 1, 2] : Fin 3 → Fin S512x512x256.rank)
  bcast_S256_S1x1x256_2 : S256.BroadcastsInDim S1x1x256 (![2] : Fin 1 → Fin S1x1x256.rank)
  bcast_S1x1x256_S512x512x256_0_1_2 : S1x1x256.BroadcastsInDim S512x512x256 (![0, 1, 2] : Fin 3 → Fin S512x512x256.rank)
  dot_S512x512x256_S256x256_S512x512x256_2_1_01_0_n_n_wf : DotDims.WF S512x512x256 S256x256 S512x512x256 [2] [1] [0, 1] [0] [] []

variable [Facts₀]

def dot_S512x512x256_S256x256_S512x512x256_2_1_01_0_n_n : DotDims S512x512x256 S256x256 S512x512x256 where
  lhsContracting := [2]
  rhsContracting := [1]
  lhsNonContracting := [0, 1]
  rhsNonContracting := [0]
  lhsBatch := []
  rhsBatch := []
  wf := dot_S512x512x256_S256x256_S512x512x256_2_1_01_0_n_n_wf

class Facts : Prop extends Facts₀ where

variable [Facts]
-- ==== Proof.KEdgeRegion.lean ====
/-
  The edge kernel's run on one core, part one: what the region finds and what its body leaves.

  The kernel walks a 4 x 8 grid of points t = (i, j). At a point it is handed six input blocks — rows
  128 i .. 128 i + 127 of n, rows 64 j .. 64 j + 63 of n (the SAME array, read through two windows), the
  [128, 64, 256] blocks (i, j) of s and of v, all of W, and the bias as a [1, 256] row — and one output
  block (i, j) of the result. The body computes the block in two halves of 64 rows: for each half it
  loads the half's rows of the n-block and of the s- and v-blocks, forms
      e[a, b, k] = (n_i[a, k] * n_j[b, k]) * s[a, b, k],
  contracts e against W over k, adds the bias and multiplies by v, and stores the half. The two stores
  tile the output block, so after the body the output buffer holds the two payloads side by side,
  whatever it held before; the input buffers are left as found.

  Everything here is stated at any float instance F: the same text serves the printed kernel and its
  idealization.
-/
import proofs.«177031_j41412074668753_2_alg».proof.Proof.Gen.Kernel.Launch
import proofs.«177031_j41412074668753_2_alg».proof.Proof.Gen.Kernel.Skeleton
import proofs.«177031_j41412074668753_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch contents after the one host operation
    before it, which writes the bias, recast as a [1, 256] row, into a buffer of its own. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the four arrays the windows read directly: the region finds
    each as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at EVERY point, for any proof data
    whose array is the region-entry one and whose body leaves the block in place: where the window is
    not fetched its block index has not moved since the last fetch (the block of 128 rows of n changes
    only when i does, W and the bias never). No block of this kernel overhangs its array, so a fetch
    fills the whole buffer. Stated window by window: the n-rows block for i, -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the n-rows block for j, -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the s block, -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- the v block, -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- W, -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- and the bias row. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Edge

end
-- ==== Proof.KEdgeBody.lean ====
/-
  The edge kernel's body on its seven staging buffers: what it reads, what it leaves.

  The body reads the n_j block, W and the bias row whole; of the n_i block and of the s and v blocks it
  reads the first 64 rows, computes the first half of the output block and stores it at rows 0..63,
  then does the same with rows 64..127. It also loads the output rows it is about to overwrite and
  never uses what it loaded. Each half is a pure function (the generated payload) of the values
  loaded for it. The two stored rectangles, [64, 64, 256] at row offsets 0 and 64, tile the
  [128, 64, 256] buffer, so its contents after the body are determined by the payloads alone.
-/
import proofs.«177031_j41412074668753_2_alg».proof.Proof.Gen.Kernel.Launch
import proofs.«177031_j41412074668753_2_alg».proof.Proof.Gen.Kernel.Skeleton
import proofs.«177031_j41412074668753_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- All of the n_j block, of W, of the bias row. -/
abbrev rNj : Rect S64x256 := Rect.unit (s := S64x256) ![0, 0] S64x256.size inb_S64x256_S64x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
/-- Rows 0..63 and rows 64..127 of the n_i block. -/
abbrev rNiLo : Rect S128x256 := Rect.unit (s := S128x256) (k0_off1 0#32) S64x256.size (k0_off1_inb 0)
abbrev rNiHi : Rect S128x256 := Rect.unit (s := S128x256) (k0_off1 1#32) S64x256.size (k0_off1_inb 1)
/-- Rows 0..63 and rows 64..127 of a [128, 64, 256] block (s, v, the output). -/
abbrev rLo : Rect S128x64x256 := Rect.unit (s := S128x64x256) (k0_off2 0#32) S64x64x256.size (k0_off2_inb 0)
abbrev rHi : Rect S128x64x256 := Rect.unit (s := S128x64x256) (k0_off2 1#32) S64x64x256.size (k0_off2_inb 1)

/-! ## What the body leaves in the output buffer -/

/-- The output buffer after the body, from the six input blocks: its two stores as pieces, the later
    one (rows 64..127) first. -/
def outBlk (xNi : Vec F S128x256 .f32) (xNj : Vec F S64x256 .f32) (xS : Vec F S128x64x256 .f32) (xV : Vec F S128x64x256 .f32)
    (xW : Vec F S256x256 .f32) (xB : Vec F S1x256 .f32) : Vec F S128x64x256 .f32 :=
  View.canon [⟨rHi, k0_pay1 (View.ld xNj rNj) (View.ld xW rW) (k0_pay2 (View.ld xB rB)) (View.ld xNi rNiHi) (View.ld xS rHi) (View.ld xV rHi)⟩,
    ⟨rLo, k0_pay3 (View.ld xNj rNj) (View.ld xW rW) (View.ld xB rB) (View.ld xNi rNiLo) (View.ld xS rLo) (View.ld xV rLo)⟩]

/-- The two stored rectangles tile the buffer in blocks of [64, 64, 256]: every element is stored. -/
theorem outCover (p1 p0 : Vec F S64x64x256 .f32) (y : S128x64x256.Idx) :
    ∃ pc ∈ ([⟨rHi, p1⟩, ⟨rLo, p0⟩] : List (View.Piece (Elt F) S128x64x256 .f32)), y ∈ pc.1.set :=
  View.cover_of_tiled [⟨rHi, p1⟩, ⟨rLo, p0⟩] S64x64x256.size (by rfl) y

/-! ## The body's triple -/

set_option maxHeartbeats 1000000 in
/-- The body on whole staging buffers, the six inputs at contents `x…` and the output at anything, runs to
    its return with the inputs as they were and the output at `outBlk` of the inputs: every load is
    through a rectangle inside its buffer, the two stores cover the output buffer, nothing else is
    touched. -/
theorem sound_kernel (c : Dev nD) (E : Set ℕ) (i : grid0.Coords)
    (arg2 : Memref sig .tc .vmem S128x256 .f32) (harg2 : arg2.IsWhole) (arg3 : Memref sig .tc .vmem S64x256 .f32) (harg3 : arg3.IsWhole)
    (arg4 : Memref sig .tc .vmem S128x64x256 .f32) (harg4 : arg4.IsWhole) (arg5 : Memref sig .tc .vmem S128x64x256 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S128x64x256 .f32) (harg8 : arg8.IsWhole)
    (x0 : Vec F S128x256 .f32) (x1 : Vec F S64x256 .f32) (x2 : Vec F S128x64x256 .f32) (x3 : Vec F S128x64x256 .f32)
    (x4 : Vec F S256x256 .f32) (x5 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outBlk x0 x1 x2 x3 x4 x5)) -∗ K ⟨⟩))
      ⊢ wp frame (wpE (defs₀ (F := F)) Variants.none c none) E
          (cc0__edge_kernel i arg2 harg2 arg3 harg3 arg4 harg4 arg5 harg5 arg6 harg6 arg7 harg7 arg8 harg8) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _ _)

end Cert.Kernel.Edge

end
-- ==== Proof.KEdgeData.lean ====
/-
  The proof data of the edge kernel's pipeline on one core, and its body obligation.

  The arrays are the region-entry ones. After the body at point t every input buffer still holds its
  block and the output buffer holds the block the body computed from the six input blocks. The two
  windows that read n hold HALF of that array each (the left and the right half of the full share):
  both only ever read it, and the halves rejoin when the region ends. Every other array is held whole.
  The body carries nothing between points, uses no scratch buffer and no random bits, and owes nothing:
  the invariant is just the core's scoped buffers that are no staging buffer, untouched.
-/
import proofs.«177031_j41412074668753_2_alg».proof.Proof.KEdgeRegion
import proofs.«177031_j41412074668753_2_alg».proof.Proof.KEdgeBody

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block the body computes at point `t`, from the six input blocks there. -/
def oblk (c : Dev nD) (t : Fin cfg0.N) : Vec F S128x64x256 .f32 :=
  outBlk (iblk m c 0 t) (iblk m c 1 t) (iblk m c 2 t) (iblk m c 3 t) (iblk m c 4 t) (iblk m c 5 t)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = oblk m c t := by dsimp only [dats]

/-- Each input's current staging buffer holds its block at every point, fetched there or not. -/
theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.Kernel.Edge

end
-- ==== Proof.KEdgeLaunch.lean ====
/-
  The launch of the edge kernel's region.

  The array n is handed to the kernel through two windows. Both only read it, so the region holds it
  as two halves of the full share, one per window, and gives the halves back joined when it ends;
  the other five arrays are each held whole by their one window.
-/
import proofs.«177031_j41412074668753_2_alg».proof.Proof.KEdgeData
import Idealize.ShloMosaic.Lib.Pipeline.Launch
import Idealize.ShloMosaic.Lib.Pipeline.Frame

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The six distinct buffers behind the seven windows, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_arg3) ↦{fullShare} V m c main_arg3)
          ∗ (((c.tc : Thread nD τ).loc main_v0) ↦{fullShare} V m c main_v0) ∗ (((c.tc : Thread nD τ).loc main_v1) ↦{fullShare} V m c main_v1)) := by
  unfold Pipeline.arrBufs
  exact Idealize.SL.BI.bigSep_eq_bigSepL_of_eq [main_arg0, main_arg1, main_arg2, main_arg3, main_v0, main_v1] (by decide) (by decide) _

/-- Each buffer held whole makes the pipeline's arrays at entry: n's full share is dealt in halves to the
    two windows that read it, every other array goes whole to its one window. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  dsimp only
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    show (dats m 0 c).share 6 = fullShare from rfl]
  rw [show (dats m 0 c).arrAt 0 0 = V m c main_arg0 from rfl, show (dats m 0 c).arrAt 1 0 = V m c main_arg0 from rfl,
    show (dats m 0 c).arrAt 2 0 = V m c main_arg1 from rfl, show (dats m 0 c).arrAt 3 0 = V m c main_arg2 from rfl,
    show (dats m 0 c).arrAt 4 0 = V m c main_arg3 from rfl, show (dats m 0 c).arrAt 5 0 = V m c main_v0 from rfl,
    show (dats m 0 c).arrAt 6 0 = V m c main_v1 from rfl]
  rw [(Memref.isWhole_whole main_arg0).set_eq_univ, (Memref.isWhole_whole main_arg1).set_eq_univ,
    (Memref.isWhole_whole main_arg2).set_eq_univ, (Memref.isWhole_whole main_arg3).set_eq_univ,
    (Memref.isWhole_whole main_v0).set_eq_univ, (Memref.isWhole_whole main_v1).set_eq_univ]
  exact (sep_mono_l (pointsTo_share (Idealize.SL.RA.PosShare.mem_left_op_right fullShare)).1).trans sep_assoc

end Cert.Kernel.Edge

end
-- ==== Proof.KEdgeRun.lean ====
/-
  The edge kernel's run: from any launch memory, every weakly fair execution of the program ends, and
  at its end the result array holds what the thirty-two write-backs left, in point order, while the
  five argument arrays are as launched. Four of them (n, s, v, W) the region only reads through its
  input windows; the fifth, the bias, it never sees (a host line before it writes the bias row into a
  buffer of its own).
-/
import proofs.«177031_j41412074668753_2_alg».proof.Proof.KEdgeLaunch

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant at every point: the scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- The region's run: each window's array ends at what the write-backs made of it, and every buffer
    that bypasses the region ends as the region found it. -/
theorem run_main : θ_run defs (onTc (τ := τ) (main (F := F))) ⟨m, fun _ => 0, ρ⟩
    (fun r => ∀ c : Dev nD,
      (∀ w, r.2.mem (((cfg0).spec w).arr.view.loc (c.tc : Thread nD τ)) = (dats m 0 c).arrAt w cfg0.N)
      ∧ ∀ b ∈ Pipeline.restRefs sig spec0, r.2.mem ((c.tc : Thread nD τ).loc b) = V m c b) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (Rounds.initOf (Pipeline.cells cfgs cellOf_inj) (Pipeline.launchToks cfgs cellOf_inj)) .rfl
    (V m) (hmain m Variants.none) (arrays_of_bufs m)
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (fun c => by rw [Phi_eq]; iintro ⟨-, H⟩; iexact H)
    (fun c => by rw [Phi_eq]; iintro H; isplitr; · iempintro
                 iexact H)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h => h)

/-- THE FRAME: the five argument arrays end as launched. n, s, v and W are input windows' arrays, never
    written back; the bias bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).2 main_arg4 (by decide)).trans (V_main_arg4 m c)⟩) (run_main m ρ)

/-- The same run with the result array named: what the write-backs of all the points left in it. -/
theorem run_result : θ_run defs (onTc (τ := τ) (main (F := F))) ⟨m, fun _ => 0, ρ⟩ (fun r => ∀ c : Dev nD,
      r.2.mem ((c.tc : Thread nD τ).loc main_v1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 6,
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).2 main_arg4 (by decide)).trans (V_main_arg4 m c)⟩) (run_main m ρ)

end Cert.Kernel.Edge

end
-- ==== Proof.EdgeRegion.lean ====
/-
  The edge kernel's run on one core, part one: what the region finds and what its body leaves.

  The kernel walks a 4 x 8 grid of points t = (i, j). At a point it is handed six input blocks — rows
  128 i .. 128 i + 127 of n, rows 64 j .. 64 j + 63 of n (the SAME array, read through two windows), the
  [128, 64, 256] blocks (i, j) of s and of v, all of W, and the bias as a [1, 256] row — and one output
  block (i, j) of the result. The body computes the block in two halves of 64 rows: for each half it
  loads the half's rows of the n-block and of the s- and v-blocks, forms
      e[a, b, k] = (n_i[a, k] * n_j[b, k]) * s[a, b, k],
  contracts e against W over k, adds the bias and multiplies by v, and stores the half. The two stores
  tile the output block, so after the body the output buffer holds the two payloads side by side,
  whatever it held before; the input buffers are left as found.

  Everything here is stated at any float instance F: the same text serves the printed kernel and its
  idealization.
-/
import proofs.«177031_j41412074668753_2_alg».proof.Proof.Gen.KernelIdeal.Launch
import proofs.«177031_j41412074668753_2_alg».proof.Proof.Gen.KernelIdeal.Skeleton
import proofs.«177031_j41412074668753_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch contents after the one host operation
    before it, which writes the bias, recast as a [1, 256] row, into a buffer of its own. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the four arrays the windows read directly: the region finds
    each as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at EVERY point, for any proof data
    whose array is the region-entry one and whose body leaves the block in place: where the window is
    not fetched its block index has not moved since the last fetch (the block of 128 rows of n changes
    only when i does, W and the bias never). No block of this kernel overhangs its array, so a fetch
    fills the whole buffer. Stated window by window: the n-rows block for i, -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the n-rows block for j, -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the s block, -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- the v block, -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- W, -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- and the bias row. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Edge

end
-- ==== Proof.EdgeBody.lean ====
/-
  The edge kernel's body on its seven staging buffers: what it reads, what it leaves.

  The body reads the n_j block, W and the bias row whole; of the n_i block and of the s and v blocks it
  reads the first 64 rows, computes the first half of the output block and stores it at rows 0..63,
  then does the same with rows 64..127. It also loads the output rows it is about to overwrite and
  never uses what it loaded. Each half is a pure function (the generated payload) of the values
  loaded for it. The two stored rectangles, [64, 64, 256] at row offsets 0 and 64, tile the
  [128, 64, 256] buffer, so its contents after the body are determined by the payloads alone.
-/
import proofs.«177031_j41412074668753_2_alg».proof.Proof.Gen.KernelIdeal.Launch
import proofs.«177031_j41412074668753_2_alg».proof.Proof.Gen.KernelIdeal.Skeleton
import proofs.«177031_j41412074668753_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

/-- All of the n_j block, of W, of the bias row. -/
abbrev rNj : Rect S64x256 := Rect.unit (s := S64x256) ![0, 0] S64x256.size inb_S64x256_S64x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
/-- Rows 0..63 and rows 64..127 of the n_i block. -/
abbrev rNiLo : Rect S128x256 := Rect.unit (s := S128x256) (k0_off1 0#32) S64x256.size (k0_off1_inb 0)
abbrev rNiHi : Rect S128x256 := Rect.unit (s := S128x256) (k0_off1 1#32) S64x256.size (k0_off1_inb 1)
/-- Rows 0..63 and rows 64..127 of a [128, 64, 256] block (s, v, the output). -/
abbrev rLo : Rect S128x64x256 := Rect.unit (s := S128x64x256) (k0_off2 0#32) S64x64x256.size (k0_off2_inb 0)
abbrev rHi : Rect S128x64x256 := Rect.unit (s := S128x64x256) (k0_off2 1#32) S64x64x256.size (k0_off2_inb 1)

/-! ## What the body leaves in the output buffer -/

/-- The output buffer after the body, from the six input blocks: its two stores as pieces, the later
    one (rows 64..127) first. -/
def outBlk (xNi : Vec F S128x256 .f32) (xNj : Vec F S64x256 .f32) (xS : Vec F S128x64x256 .f32) (xV : Vec F S128x64x256 .f32)
    (xW : Vec F S256x256 .f32) (xB : Vec F S1x256 .f32) : Vec F S128x64x256 .f32 :=
  View.canon [⟨rHi, k0_pay1 (View.ld xNj rNj) (View.ld xW rW) (k0_pay2 (View.ld xB rB)) (View.ld xNi rNiHi) (View.ld xS rHi) (View.ld xV rHi)⟩,
    ⟨rLo, k0_pay3 (View.ld xNj rNj) (View.ld xW rW) (View.ld xB rB) (View.ld xNi rNiLo) (View.ld xS rLo) (View.ld xV rLo)⟩]

/-- The two stored rectangles tile the buffer in blocks of [64, 64, 256]: every element is stored. -/
theorem outCover (p1 p0 : Vec F S64x64x256 .f32) (y : S128x64x256.Idx) :
    ∃ pc ∈ ([⟨rHi, p1⟩, ⟨rLo, p0⟩] : List (View.Piece (Elt F) S128x64x256 .f32)), y ∈ pc.1.set :=
  View.cover_of_tiled [⟨rHi, p1⟩, ⟨rLo, p0⟩] S64x64x256.size (by rfl) y

/-! ## The body's triple -/

set_option maxHeartbeats 1000000 in
/-- The body on whole staging buffers, the six inputs at contents `x…` and the output at anything, runs to
    its return with the inputs as they were and the output at `outBlk` of the inputs: every load is
    through a rectangle inside its buffer, the two stores cover the output buffer, nothing else is
    touched. -/
theorem sound_kernel (c : Dev nD) (E : Set ℕ) (i : grid0.Coords)
    (arg2 : Memref sig .tc .vmem S128x256 .f32) (harg2 : arg2.IsWhole) (arg3 : Memref sig .tc .vmem S64x256 .f32) (harg3 : arg3.IsWhole)
    (arg4 : Memref sig .tc .vmem S128x64x256 .f32) (harg4 : arg4.IsWhole) (arg5 : Memref sig .tc .vmem S128x64x256 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S128x64x256 .f32) (harg8 : arg8.IsWhole)
    (x0 : Vec F S128x256 .f32) (x1 : Vec F S64x256 .f32) (x2 : Vec F S128x64x256 .f32) (x3 : Vec F S128x64x256 .f32)
    (x4 : Vec F S256x256 .f32) (x5 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outBlk x0 x1 x2 x3 x4 x5)) -∗ K ⟨⟩))
      ⊢ wp frame (wpE (defs₀ (F := F)) Variants.none c none) E
          (cc0__edge_kernel i arg2 harg2 arg3 harg3 arg4 harg4 arg5 harg5 arg6 harg6 arg7 harg7 arg8 harg8) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _ _)

end Cert.KernelIdeal.Edge

end
-- ==== Proof.EdgeData.lean ====
/-
  The proof data of the edge kernel's pipeline on one core, and its body obligation.

  The arrays are the region-entry ones. After the body at point t every input buffer still holds its
  block and the output buffer holds the block the body computed from the six input blocks. The two
  windows that read n hold HALF of that array each (the left and the right half of the full share):
  both only ever read it, and the halves rejoin when the region ends. Every other array is held whole.
  The body carries nothing between points, uses no scratch buffer and no random bits, and owes nothing:
  the invariant is just the core's scoped buffers that are no staging buffer, untouched.
-/
import proofs.«177031_j41412074668753_2_alg».proof.Proof.EdgeRegion
import proofs.«177031_j41412074668753_2_alg».proof.Proof.EdgeBody

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block the body computes at point `t`, from the six input blocks there. -/
def oblk (c : Dev nD) (t : Fin cfg0.N) : Vec F S128x64x256 .f32 :=
  outBlk (iblk m c 0 t) (iblk m c 1 t) (iblk m c 2 t) (iblk m c 3 t) (iblk m c 4 t) (iblk m c 5 t)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = oblk m c t := by dsimp only [dats]

/-- Each input's current staging buffer holds its block at every point, fetched there or not. -/
theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Edge

end
-- ==== Proof.EdgeLaunch.lean ====
/-
  The launch of the edge kernel's region.

  The array n is handed to the kernel through two windows. Both only read it, so the region holds it
  as two halves of the full share, one per window, and gives the halves back joined when it ends;
  the other five arrays are each held whole by their one window.
-/
import proofs.«177031_j41412074668753_2_alg».proof.Proof.EdgeData
import Idealize.ShloMosaic.Lib.Pipeline.Launch
import Idealize.ShloMosaic.Lib.Pipeline.Frame

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The six distinct buffers behind the seven windows, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_arg3) ↦{fullShare} V m c main_arg3)
          ∗ (((c.tc : Thread nD τ).loc main_v0) ↦{fullShare} V m c main_v0) ∗ (((c.tc : Thread nD τ).loc main_v1) ↦{fullShare} V m c main_v1)) := by
  unfold Pipeline.arrBufs
  exact Idealize.SL.BI.bigSep_eq_bigSepL_of_eq [main_arg0, main_arg1, main_arg2, main_arg3, main_v0, main_v1] (by decide) (by decide) _

/-- Each buffer held whole makes the pipeline's arrays at entry: n's full share is dealt in halves to the
    two windows that read it, every other array goes whole to its one window. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  dsimp only
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl, show (dats m 0 c).share 5 = fullShare from rfl,
    show (dats m 0 c).share 6 = fullShare from rfl]
  rw [show (dats m 0 c).arrAt 0 0 = V m c main_arg0 from rfl, show (dats m 0 c).arrAt 1 0 = V m c main_arg0 from rfl,
    show (dats m 0 c).arrAt 2 0 = V m c main_arg1 from rfl, show (dats m 0 c).arrAt 3 0 = V m c main_arg2 from rfl,
    show (dats m 0 c).arrAt 4 0 = V m c main_arg3 from rfl, show (dats m 0 c).arrAt 5 0 = V m c main_v0 from rfl,
    show (dats m 0 c).arrAt 6 0 = V m c main_v1 from rfl]
  rw [(Memref.isWhole_whole main_arg0).set_eq_univ, (Memref.isWhole_whole main_arg1).set_eq_univ,
    (Memref.isWhole_whole main_arg2).set_eq_univ, (Memref.isWhole_whole main_arg3).set_eq_univ,
    (Memref.isWhole_whole main_v0).set_eq_univ, (Memref.isWhole_whole main_v1).set_eq_univ]
  exact (sep_mono_l (pointsTo_share (Idealize.SL.RA.PosShare.mem_left_op_right fullShare)).1).trans sep_assoc

end Cert.KernelIdeal.Edge

end
-- ==== Proof.EdgeRun.lean ====
/-
  The edge kernel's run: from any launch memory, every weakly fair execution of the program ends, and
  at its end the result array holds what the thirty-two write-backs left, in point order, while the
  five argument arrays are as launched. Four of them (n, s, v, W) the region only reads through its
  input windows; the fifth, the bias, it never sees (a host line before it writes the bias row into a
  buffer of its own).
-/
import proofs.«177031_j41412074668753_2_alg».proof.Proof.EdgeLaunch

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant at every point: the scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- The region's run: each window's array ends at what the write-backs made of it, and every buffer
    that bypasses the region ends as the region found it. -/
theorem run_main : θ_run defs (onTc (τ := τ) (main (F := F))) ⟨m, fun _ => 0, ρ⟩
    (fun r => ∀ c : Dev nD,
      (∀ w, r.2.mem (((cfg0).spec w).arr.view.loc (c.tc : Thread nD τ)) = (dats m 0 c).arrAt w cfg0.N)
      ∧ ∀ b ∈ Pipeline.restRefs sig spec0, r.2.mem ((c.tc : Thread nD τ).loc b) = V m c b) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (Rounds.initOf (Pipeline.cells cfgs cellOf_inj) (Pipeline.launchToks cfgs cellOf_inj)) .rfl
    (V m) (hmain m Variants.none) (arrays_of_bufs m)
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (fun c => by rw [Phi_eq]; iintro ⟨-, H⟩; iexact H)
    (fun c => by rw [Phi_eq]; iintro H; isplitr; · iempintro
                 iexact H)
    (fun c s => ∀ b ∈ Pipeline.restRefs sig spec0, s.mem ((c.tc : Thread nD τ).loc b) = V m c b)
    (fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (fun s h => h)

/-- THE FRAME: the five argument arrays end as launched. n, s, v and W are input windows' arrays, never
    written back; the bias bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).2 main_arg4 (by decide)).trans (V_main_arg4 m c)⟩) (run_main m ρ)

/-- The same run with the result array named: what the write-backs of all the points left in it. -/
theorem run_result : θ_run defs (onTc (τ := τ) (main (F := F))) ⟨m, fun _ => 0, ρ⟩ (fun r => ∀ c : Dev nD,
      r.2.mem ((c.tc : Thread nD τ).loc main_v1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 6,
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).2 main_arg4 (by decide)).trans (V_main_arg4 m c)⟩) (run_main m ρ)

end Cert.KernelIdeal.Edge

end
-- ==== Proof.LibLayout3.lean ====
/-
  Rank-3 layout operations read at an index given by coordinates.

  A shape cast keeps the row-major position of an element, and a broadcast reads coordinate 0 on each unit
  axis of its operand. The lemmas below spell this out, for indices written by their coordinates, in the cases
  an outer product of two row blocks flattened for a matrix product needs:
  * inserting a unit axis in the middle, `[a, c] → [a, 1, c]`;
  * flattening the two leading axes, `[a, b, c] → [a * b, c]` (row `i * b + k` is the pair `(i, k)`), and back;
  * stretching a unit axis, `[a, 1, c] → [a, b, c]`, `[1, b, c] → [a, b, c]`, `[1, 1, c] → [a, b, c]`.
-/
import Idealize.ShloMosaic.Lib.Pipeline.Value
import Idealize.ShloMosaic.Lib.ValueIdx

namespace Cert.Layout3

open Idealize.ShloMosaic Idealize.ShloMosaic.ValueIdx

variable {α : Type}

/-! ## Shape casts -/

/-- An `[a, c]` array cast to `[a, 1, c]` reads, at `(i, u, j)`, the operand at `(i, j)`: both have row-major
    position `i * c + j`, the unit coordinate `u` being `0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, c]` array cast to `[m, c]` reads, at `(r, j)` with `r = i * b + k`, the operand at `(i, k, j)`: both have
    row-major position `(i * b + k) * c + j`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (j : Fin c) (i : Fin a) (k : Fin b)
    (hr : r.val = i.val * b + k.val) :
    shapeCast ⟨2, ![m, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[m, c]` array cast to `[a, b, c]` reads, at `(i, k, j)`, the operand at `(r, j)` with `r = i * b + k`. -/
theorem shapeCast_mc_abc_apply {a b c m : ℕ} (x : (⟨2, ![m, c]⟩ : Shape).Idx → α)
    (h : (⟨2, ![m, c]⟩ : Shape).ShapeCasts ⟨3, ![a, b, c]⟩) (i : Fin a) (k : Fin b) (j : Fin c) (r : Fin m)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-! ## Broadcasts along unit axes -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Cert.Layout3
-- ==== Proof.PayloadAt.lean ====
/-
  The kernel's stored values, read at one index.

  One grid point of the kernel works on a block of 128 rows `a` against a block of 64 columns `b`, in two
  chunks of 64 rows. For each chunk it forms the outer product of the two row blocks along the feature axis,
  `(n_i[a, k] * n_j[b, k]) * s[a, b, k]`, flattens the pair `(a, b)` to the row `a * 64 + b` of a
  `[4096, 256]` matrix, multiplies that matrix by `W` transposed (contracting the feature axis `k` of both
  operands, into a zero accumulator), unflattens, adds the bias row and multiplies by the gate block `v`.

  Read at the index `(a, b, d)` this is
    `((∑ k, ((n_i[a, k] * n_j[b, k]) * s[a, b, k]) * W[d, k]) + bias[0, d]) * v[a, b, d]`,
  with the products associated exactly as the operations apply them; nothing is rearranged, so no property
  of the extended reals beyond the definitions of the operations is used.

  The steps: a shape cast keeps the row-major position (`(a * 64 + b) * 256 + d` on both sides of the
  flattening), a broadcast reads coordinate 0 on a unit axis, the pointwise operations act element by element,
  and the matrix product into a zero accumulator is the sum, over the one contracted coordinate, of the
  products of the operands' entries.
-/
import proofs.«177031_j41412074668753_2_alg».proof.Proof.Gen.KernelIdeal.Skeleton
import proofs.«177031_j41412074668753_2_alg».proof.Proof.LibLayout3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx Idealize.SL.Sem
open scoped BigOperators

/-! ## The matrix product at an index

The product contracts axis 1 of the left operand `[4096, 256]` with axis 1 of the right operand `[256, 256]`;
the result's row comes from the left operand's axis 0 and its column from the right operand's axis 0. So at
output `(r, d)` and contraction coordinate `k` the operands are read at `(r, k)` and `(d, k)`. -/

/-- The left operand's row at an output index is the output's row. -/
theorem lhs_row (j : S4096x256.Idx) (q : dot_S4096x256_S256x256_S4096x256_1_1_0_0_n_n.contr.Idx) :
    (dot_S4096x256_S256x256_S4096x256_1_1_0_0_n_n.lhsIdx j q 0).val = (j 0).val := by
  unfold DotDims.lhsIdx
  rw [dif_neg (show ¬(0 : Fin S4096x256.rank) ∈ dot_S4096x256_S256x256_S4096x256_1_1_0_0_n_n.lhsBatch by decide),
    dif_pos (show (0 : Fin S4096x256.rank) ∈ dot_S4096x256_S256x256_S4096x256_1_1_0_0_n_n.lhsNonContracting by decide)]
  rfl

/-- The left operand's column at an output index is the contraction coordinate. -/
theorem lhs_col (j : S4096x256.Idx) (q : dot_S4096x256_S256x256_S4096x256_1_1_0_0_n_n.contr.Idx) :
    (dot_S4096x256_S256x256_S4096x256_1_1_0_0_n_n.lhsIdx j q 1).val = (q ⟨0, by decide⟩).val :=
  dot_S4096x256_S256x256_S4096x256_1_1_0_0_n_n.lhsIdx_val_of_single rfl j q

/-- The right operand's row at an output index is the output's column. -/
theorem rhs_row (j : S4096x256.Idx) (q : dot_S4096x256_S256x256_S4096x256_1_1_0_0_n_n.contr.Idx) :
    (dot_S4096x256_S256x256_S4096x256_1_1_0_0_n_n.rhsIdx j q 0).val = (j 1).val := by
  unfold DotDims.rhsIdx
  rw [dif_neg (show ¬(0 : Fin S256x256.rank) ∈ dot_S4096x256_S256x256_S4096x256_1_1_0_0_n_n.rhsBatch by decide),
    dif_pos (show (0 : Fin S256x256.rank) ∈ dot_S4096x256_S256x256_S4096x256_1_1_0_0_n_n.rhsNonContracting by decide)]
  rfl

/-- The right operand's column at an output index is the contraction coordinate. -/
theorem rhs_col (j : S4096x256.Idx) (q : dot_S4096x256_S256x256_S4096x256_1_1_0_0_n_n.contr.Idx) :
    (dot_S4096x256_S256x256_S4096x256_1_1_0_0_n_n.rhsIdx j q 1).val = (q ⟨0, by decide⟩).val :=
  dot_S4096x256_S256x256_S4096x256_1_1_0_0_n_n.rhsIdx_val_of_single rfl j q

/-- The matrix product into a zero accumulator, at `(r, d)`: `∑ k, L[r, k] * R[d, k]`. The sum over the one-axis
    contraction index is re-indexed by its coordinate. -/
theorem matmul_at (L : FVec Ideal S4096x256 .f32) (R : FVec Ideal S256x256 .f32) (r : Fin 4096) (d : Fin 256) :
    matmul dot_S4096x256_S256x256_S4096x256_1_1_0_0_n_n (some .fp32) L R
        (constant (F := Ideal) S4096x256 .f32 0x00000000#32) (ix2 r d)
      = ∑ k : Fin 256, L (ix2 r k) * R (ix2 d k) := by
  simp only [matmul]
  rw [Ideal.matmul_constant_zero_apply,
    ← Equiv.sum_comp (contrEquiv1 dot_S4096x256_S256x256_S4096x256_1_1_0_0_n_n 256 rfl rfl).symm]
  refine Finset.sum_congr rfl fun k _ => ?_
  have hk := contrEquiv1_symm_val dot_S4096x256_S256x256_S4096x256_1_1_0_0_n_n 256 rfl rfl k
  have el : dot_S4096x256_S256x256_S4096x256_1_1_0_0_n_n.lhsIdx (ix2 r d)
      ((contrEquiv1 dot_S4096x256_S256x256_S4096x256_1_1_0_0_n_n 256 rfl rfl).symm k) = ix2 r k :=
    funext fun ax => Fin.ext (by
      match ax with
      | ⟨0, _⟩ => exact lhs_row _ _
      | ⟨1, _⟩ => exact (lhs_col _ _).trans hk)
  have er : dot_S4096x256_S256x256_S4096x256_1_1_0_0_n_n.rhsIdx (ix2 r d)
      ((contrEquiv1 dot_S4096x256_S256x256_S4096x256_1_1_0_0_n_n 256 rfl rfl).symm k) = ix2 d k :=
    funext fun ax => Fin.ext (by
      match ax with
      | ⟨0, _⟩ => exact rhs_row _ _
      | ⟨1, _⟩ => exact (rhs_col _ _).trans hk)
  rw [el, er]

/-! ## The flattened outer product at an index -/

/-- Row `a * 64 + b`, column `k`, of the flattened outer product is `(P[a, k] * Q[b, k]) * S[a, b, k]`: `P` enters
    with a unit middle axis stretched over `b`, `Q` with a unit leading axis stretched over `a`. -/
theorem outer_at (P Q : FVec Ideal S64x256 .f32) (S : FVec Ideal S64x64x256 .f32)
    (h1 : S64x256.ShapeCasts S64x1x256) (h2 : S64x256.ShapeCasts S1x64x256)
    (h3 : S64x1x256.Broadcasts S64x64x256) (h4 : S1x64x256.Broadcasts S64x64x256)
    (h5 : S64x64x256.ShapeCasts S4096x256)
    (a b : Fin 64) (k : Fin 256) (r : Fin 4096) (hr : r.val = a.val * 64 + b.val) :
    shapeCast S4096x256
        (mulf (mulf (broadcastTo S64x64x256 (shapeCast S64x1x256 P h1) h3)
          (broadcastTo S64x64x256 (shapeCast S1x64x256 Q h2) h4)) S) h5 (ix2 r k)
      = (P (ix2 a k) * Q (ix2 b k)) * S (ix3 a b k) := by
  rw [Layout3.shapeCast_abc_mc_apply _ h5 r k a b hr, mulf_apply, mulf_apply,
    Layout3.broadcastTo_a1c_abc_apply _ h3 a b k, Layout3.shapeCast_ac_a1c_apply P h1 a 0 k,
    Layout3.broadcastTo_1bc_abc_apply _ h4 a b k, shapeCast_ab_1ab_apply Q h2 0 b k]

/-! ## The payloads -/

/-- The bias row, recast from `[1, 256]` to `[1, 1, 256]`, at `(0, 0, d)` is the row at `(0, d)`. -/
theorem pay2_at (v2 : Vec Ideal S1x256 .f32) (d : Fin 256) :
    Gen.k0_pay2 (F := Ideal) v2 (ix3 (0 : Fin 1) (0 : Fin 1) d) = v2 (ix2 (0 : Fin 1) d) := by
  unfold Gen.k0_pay2
  rw [shapeCast_ab_1ab_apply, shapeCast_self]

/-- The value stored for rows 0..63 of a block, at `(a, b, d)`. -/
theorem pay3_at (v0 v8 : Vec Ideal S64x256 .f32) (v1 : Vec Ideal S256x256 .f32) (v2 : Vec Ideal S1x256 .f32)
    (v10 v12 : Vec Ideal S64x64x256 .f32) (a b : Fin 64) (d : Fin 256) :
    Gen.k0_pay3 (F := Ideal) v0 v1 v2 v8 v10 v12 (ix3 a b d)
      = ((∑ k : Fin 256, ((v8 (ix2 a k) * v0 (ix2 b k)) * v10 (ix3 a b k)) * v1 (ix2 d k))
          + v2 (ix2 (0 : Fin 1) d)) * v12 (ix3 a b d) := by
  have hr : a.val * 64 + b.val < 4096 := by have := a.isLt; have := b.isLt; omega
  unfold Gen.k0_pay3
  rw [mulf_apply, addf_apply,
    Layout3.shapeCast_mc_abc_apply _ _ a b d ⟨a.val * 64 + b.val, hr⟩ rfl,
    matmul_at, Layout3.broadcastTo_11c_abc_apply _ _ a b d, pay2_at]
  refine congrArg (fun x => (x + v2 (ix2 (0 : Fin 1) d)) * v12 (ix3 a b d)) (Finset.sum_congr rfl fun k _ => ?_)
  rw [outer_at v8 v0 v10 _ _ _ _ _ a b k ⟨a.val * 64 + b.val, hr⟩ rfl]

/-- The value stored for rows 64..127 of a block, at `(a, b, d)`: the same formula, the bias entering already
    recast to `[1, 1, 256]`. -/
theorem pay1_at (v0 v30 : Vec Ideal S64x256 .f32) (v1 : Vec Ideal S256x256 .f32) (v4 : FVec Ideal S1x1x256 .f32)
    (v32 v34 : Vec Ideal S64x64x256 .f32) (a b : Fin 64) (d : Fin 256) :
    Gen.k0_pay1 (F := Ideal) v0 v1 v4 v30 v32 v34 (ix3 a b d)
      = ((∑ k : Fin 256, ((v30 (ix2 a k) * v0 (ix2 b k)) * v32 (ix3 a b k)) * v1 (ix2 d k))
          + v4 (ix3 (0 : Fin 1) (0 : Fin 1) d)) * v34 (ix3 a b d) := by
  have hr : a.val * 64 + b.val < 4096 := by have := a.isLt; have := b.isLt; omega
  unfold Gen.k0_pay1
  rw [mulf_apply, addf_apply,
    Layout3.shapeCast_mc_abc_apply _ _ a b d ⟨a.val * 64 + b.val, hr⟩ rfl,
    matmul_at, Layout3.broadcastTo_11c_abc_apply _ _ a b d]
  refine congrArg (fun x => (x + v4 (ix3 (0 : Fin 1) (0 : Fin 1) d)) * v34 (ix3 a b d))
    (Finset.sum_congr rfl fun k _ => ?_)
  rw [outer_at v30 v0 v32 _ _ _ _ _ a b k ⟨a.val * 64 + b.val, hr⟩ rfl]

end Cert.KernelIdeal.PayloadAt

end
-- ==== Proof.EdgeSpec.lean ====
/-
  The specification: a gated linear map of pairwise edge features.

  From node features `n : [512, 256]`, edge features `s : [512, 512, 256]`, edge gates `v : [512, 512, 256]`, a weight
  matrix `W : [256, 256]` and a bias `bias : [256]`, every pair of nodes `(a, b)` gets the feature vector
  `n[a, ·] * n[b, ·] * s[a, b, ·]` (products taken feature by feature); that vector is mapped linearly by `W`
  (output feature `d` is its inner product with row `d` of `W`), shifted by the bias and multiplied by the gate:

    `out[a, b, d] = ((∑ k, ((n[a, k] * n[b, k]) * s[a, b, k]) * W[d, k]) + bias[d]) * v[a, b, d]`.

  Floats are read as extended reals and every operation is the exact one. The products are associated as
  written: with infinities among the entries multiplication does not distribute over addition, so the formula
  is kept in this one form and nothing in it is ever rearranged.
-/
import Idealize.ShloMosaic.PureOps.Ideal
import Idealize.ShloMosaic.Lib.ValueIdx

noncomputable section

namespace Cert.Edge

open Idealize.ShloMosaic Idealize.ShloMosaic.ValueIdx
open scoped BigOperators

/-- The gated linear map of the pairwise edge features, entry by entry: at `i = (a, b, d)`,
    `((∑ k : Fin 256, ((n[a, k] * n[b, k]) * s[a, b, k]) * W[d, k]) + bias[d]) * v[a, b, d]`,
    over the extended reals, the products associated exactly as written. -/
def gatedEdgeLinear
    (n : (⟨2, ![512, 256]⟩ : Shape).Idx → EReal)
    (s v : (⟨3, ![512, 512, 256]⟩ : Shape).Idx → EReal)
    (W : (⟨2, ![256, 256]⟩ : Shape).Idx → EReal)
    (bias : (⟨1, ![256]⟩ : Shape).Idx → EReal) :
    (⟨3, ![512, 512, 256]⟩ : Shape).Idx → EReal :=
  fun i =>
    ((∑ k : Fin 256, ((n (ix2 (i 0) k) * n (ix2 (i 1) k)) * s (ix3 (i 0) (i 1) k)) * W (ix2 (i 2) k))
      + bias (ix1 (i 2))) * v (ix3 (i 0) (i 1) (i 2))

/-- The same at an index given by its coordinates. -/
theorem gatedEdgeLinear_at
    (n : (⟨2, ![512, 256]⟩ : Shape).Idx → EReal)
    (s v : (⟨3, ![512, 512, 256]⟩ : Shape).Idx → EReal)
    (W : (⟨2, ![256, 256]⟩ : Shape).Idx → EReal)
    (bias : (⟨1, ![256]⟩ : Shape).Idx → EReal) (a b : Fin 512) (d : Fin 256) :
    gatedEdgeLinear n s v W bias (ix3 a b d)
      = ((∑ k : Fin 256, ((n (ix2 a k) * n (ix2 b k)) * s (ix3 a b k)) * W (ix2 d k)) + bias (ix1 d))
          * v (ix3 a b d) := rfl

end Cert.Edge

end
-- ==== Proof.EdgeFinal.lean ====
/-
  From the blocks to the whole array.

  At grid point t = (i, j) the body leaves, in the output buffer, the block computed from the six input blocks:
  rows 0..63 by the first half's payload, rows 64..127 by the second's. Read at (a, b, d) either half is
      ((∑ k, ((n_i[a, k] * n_j[b, k]) * s[a, b, k]) * W[d, k]) + bias[0, d]) * v[a, b, d]
  over the blocks. A block's element sits in its array, on each axis, at block index * block size + its own
  coordinate; the n_i block is rows 128 i .. of n, the n_j block rows 64 j .., the s, v and output blocks sit at
  (128 i, 64 j, 0), W and the bias row are whole. So what point t writes back is block t of ONE function of the
  launch arrays, the gated linear map of the pairwise edge features, and since the 4 x 8 output blocks tile the
  [512, 512, 256] result, the result array ends holding that function.
-/
import proofs.«177031_j41412074668753_2_alg».proof.Proof.EdgeData
import proofs.«177031_j41412074668753_2_alg».proof.Proof.PayloadAt
import proofs.«177031_j41412074668753_2_alg».proof.Proof.EdgeSpec
import proofs.«177031_j41412074668753_2_alg».proof.Proof.LibLayout3
import Idealize.ShloMosaic.Lib.Pipeline.Value
import Idealize.ShloMosaic.Lib.ValueIdx
import Idealize.ShloMosaic.Lib.ValueLayout

noncomputable section

namespace Cert.KernelIdeal.Edge

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The body's rectangles, by coordinates -/

theorem hz2 : (![0, 0] : Fin 2 → Nat) = fun _ => 0 := funext fun a => by fin_cases a <;> rfl

/-- The row offsets of the two halves, in closed form. -/
theorem off1_lo : k0_off1 0#32 = ![0, 0] := k0_off1_eq ⟨0, by decide⟩
theorem off1_hi : k0_off1 1#32 = ![64, 0] := k0_off1_eq ⟨1, by decide⟩
theorem off2_lo : k0_off2 0#32 = ![0, 0, 0] := k0_off2_eq ⟨0, by decide⟩
theorem off2_hi : k0_off2 1#32 = ![64, 0, 0] := k0_off2_eq ⟨1, by decide⟩

/-- Row `a` of the first half of a [128, 64, 256] block is row `a` of the block; -/
theorem rLo_emb (a b : Fin 64) (d : Fin 256) :
    rLo.emb (ix3 a b d) = ix3 (⟨a.val, by omega⟩ : Fin 128) b d :=
  funext fun ax => Fin.ext (by
    rw [Rect.emb_apply]
    match ax with
    | ⟨0, _⟩ => show k0_off2 0#32 0 + 1 * a.val = a.val; rw [off2_lo]; show 0 + 1 * a.val = a.val; omega
    | ⟨1, _⟩ => show k0_off2 0#32 1 + 1 * b.val = b.val; rw [off2_lo]; show 0 + 1 * b.val = b.val; omega
    | ⟨2, _⟩ => show k0_off2 0#32 2 + 1 * d.val = d.val; rw [off2_lo]; show 0 + 1 * d.val = d.val; omega)

/-- of the second half, row `64 + a`. -/
theorem rHi_emb (a b : Fin 64) (d : Fin 256) :
    rHi.emb (ix3 a b d) = ix3 (⟨64 + a.val, by omega⟩ : Fin 128) b d :=
  funext fun ax => Fin.ext (by
    rw [Rect.emb_apply]
    match ax with
    | ⟨0, _⟩ => show k0_off2 1#32 0 + 1 * a.val = 64 + a.val; rw [off2_hi]; show 64 + 1 * a.val = 64 + a.val; omega
    | ⟨1, _⟩ => show k0_off2 1#32 1 + 1 * b.val = b.val; rw [off2_hi]; show 0 + 1 * b.val = b.val; omega
    | ⟨2, _⟩ => show k0_off2 1#32 2 + 1 * d.val = d.val; rw [off2_hi]; show 0 + 1 * d.val = d.val; omega)

/-- The same for the two halves of the [128, 256] block of rows. -/
theorem rNiLo_emb (a : Fin 64) (k : Fin 256) : rNiLo.emb (ix2 a k) = ix2 (⟨a.val, by omega⟩ : Fin 128) k :=
  funext fun ax => Fin.ext (by
    rw [Rect.emb_apply]
    match ax with
    | ⟨0, _⟩ => show k0_off1 0#32 0 + 1 * a.val = a.val; rw [off1_lo]; show 0 + 1 * a.val = a.val; omega
    | ⟨1, _⟩ => show k0_off1 0#32 1 + 1 * k.val = k.val; rw [off1_lo]; show 0 + 1 * k.val = k.val; omega)

theorem rNiHi_emb (a : Fin 64) (k : Fin 256) : rNiHi.emb (ix2 a k) = ix2 (⟨64 + a.val, by omega⟩ : Fin 128) k :=
  funext fun ax => Fin.ext (by
    rw [Rect.emb_apply]
    match ax with
    | ⟨0, _⟩ => show k0_off1 1#32 0 + 1 * a.val = 64 + a.val; rw [off1_hi]; show 64 + 1 * a.val = 64 + a.val; omega
    | ⟨1, _⟩ => show k0_off1 1#32 1 + 1 * k.val = k.val; rw [off1_hi]; show 0 + 1 * k.val = k.val; omega)

/-! ## The body's output block at an index -/

/-- A row of the first half lies outside the second half's rectangle. -/
theorem rLo_emb_not_mem_rHi (a b : Fin 64) (d : Fin 256) : rLo.emb (ix3 a b d) ∉ rHi.set := by
  rw [rLo_emb, Rect.mem_set_unit]
  intro h
  have h0 := (h 0).1
  rw [off2_hi] at h0
  have h0' : 64 ≤ a.val := h0
  omega

/-- The buffer left by the two stores, the later one (rows 64..127) first: at a row of the second half it holds
    the second payload, -/
theorem canon_hi (p1 p0 : Vec Ideal S64x64x256 .f32) (a b : Fin 64) (d : Fin 256) :
    View.canon ([⟨rHi, p1⟩, ⟨rLo, p0⟩] : List (View.Piece (Elt Ideal) S128x64x256 .f32)) (rHi.emb (ix3 a b d))
      = p1 (ix3 a b d) :=
  View.canon_cons_emb rHi p1 [⟨rLo, p0⟩] (ix3 a b d)

/-- at a row of the first half, which the later store does not reach, the first. -/
theorem canon_lo (p1 p0 : Vec Ideal S64x64x256 .f32) (a b : Fin 64) (d : Fin 256) :
    View.canon ([⟨rHi, p1⟩, ⟨rLo, p0⟩] : List (View.Piece (Elt Ideal) S128x64x256 .f32)) (rLo.emb (ix3 a b d))
      = p0 (ix3 a b d) :=
  (View.canon_cons_of_not_mem (⟨rHi, p1⟩ : View.Piece (Elt Ideal) S128x64x256 .f32) [⟨rLo, p0⟩]
    (rLo_emb_not_mem_rHi a b d)).trans (View.canon_cons_emb rLo p0 [] (ix3 a b d))

/-- Rows 64..127 of the output block: the second half's payload, read off the input blocks. -/
theorem outBlk_hi (xNi : Vec Ideal S128x256 .f32) (xNj : Vec Ideal S64x256 .f32) (xS xV : Vec Ideal S128x64x256 .f32)
    (xW : Vec Ideal S256x256 .f32) (xB : Vec Ideal S1x256 .f32) (a b : Fin 64) (d : Fin 256) :
    outBlk (F := Ideal) xNi xNj xS xV xW xB (ix3 (⟨64 + a.val, by omega⟩ : Fin 128) b d)
      = ((∑ k : Fin 256, ((xNi (ix2 (⟨64 + a.val, by omega⟩ : Fin 128) k) * xNj (ix2 b k))
            * xS (ix3 (⟨64 + a.val, by omega⟩ : Fin 128) b k)) * xW (ix2 d k))
          + xB (ix2 (0 : Fin 1) d)) * xV (ix3 (⟨64 + a.val, by omega⟩ : Fin 128) b d) := by
  refine (congrArg (outBlk (F := Ideal) xNi xNj xS xV xW xB) (rHi_emb a b d).symm).trans ?_
  unfold outBlk
  refine (canon_hi _ _ a b d).trans ?_
  refine (PayloadAt.pay1_at (View.ld xNj rNj) (View.ld xNi rNiHi) (View.ld xW rW) (k0_pay2 (View.ld xB rB))
    (View.ld xS rHi) (View.ld xV rHi) a b d).trans ?_
  have eNi : ∀ k : Fin 256, View.ld xNi rNiHi (ix2 a k) = xNi (ix2 (⟨64 + a.val, by omega⟩ : Fin 128) k) :=
    fun k => congrArg xNi (rNiHi_emb a k)
  have eS : ∀ k : Fin 256, View.ld xS rHi (ix3 a b k) = xS (ix3 (⟨64 + a.val, by omega⟩ : Fin 128) b k) :=
    fun k => congrArg xS (rHi_emb a b k)
  have eV : View.ld xV rHi (ix3 a b d) = xV (ix3 (⟨64 + a.val, by omega⟩ : Fin 128) b d) := congrArg xV (rHi_emb a b d)
  have eNj : View.ld xNj rNj = xNj := View.ld_unit_zero hz2 _ xNj
  have eW : View.ld xW rW = xW := View.ld_unit_zero hz2 _ xW
  have eB : View.ld xB rB = xB := View.ld_unit_zero hz2 _ xB
  rw [PayloadAt.pay2_at, eNj, eW, eB, eV]
  simp only [eNi, eS]

/-- Rows 0..63 of the output block: the first half's payload, read off the input blocks. -/
theorem outBlk_lo (xNi : Vec Ideal S128x256 .f32) (xNj : Vec Ideal S64x256 .f32) (xS xV : Vec Ideal S128x64x256 .f32)
    (xW : Vec Ideal S256x256 .f32) (xB : Vec Ideal S1x256 .f32) (a b : Fin 64) (d : Fin 256) :
    outBlk (F := Ideal) xNi xNj xS xV xW xB (ix3 (⟨a.val, by omega⟩ : Fin 128) b d)
      = ((∑ k : Fin 256, ((xNi (ix2 (⟨a.val, by omega⟩ : Fin 128) k) * xNj (ix2 b k))
            * xS (ix3 (⟨a.val, by omega⟩ : Fin 128) b k)) * xW (ix2 d k))
          + xB (ix2 (0 : Fin 1) d)) * xV (ix3 (⟨a.val, by omega⟩ : Fin 128) b d) := by
  refine (congrArg (outBlk (F := Ideal) xNi xNj xS xV xW xB) (rLo_emb a b d).symm).trans ?_
  unfold outBlk
  refine (canon_lo _ _ a b d).trans ?_
  refine (PayloadAt.pay3_at (View.ld xNj rNj) (View.ld xNi rNiLo) (View.ld xW rW) (View.ld xB rB)
    (View.ld xS rLo) (View.ld xV rLo) a b d).trans ?_
  have eNi : ∀ k : Fin 256, View.ld xNi rNiLo (ix2 a k) = xNi (ix2 (⟨a.val, by omega⟩ : Fin 128) k) :=
    fun k => congrArg xNi (rNiLo_emb a k)
  have eS : ∀ k : Fin 256, View.ld xS rLo (ix3 a b k) = xS (ix3 (⟨a.val, by omega⟩ : Fin 128) b k) :=
    fun k => congrArg xS (rLo_emb a b k)
  have eV : View.ld xV rLo (ix3 a b d) = xV (ix3 (⟨a.val, by omega⟩ : Fin 128) b d) := congrArg xV (rLo_emb a b d)
  have eNj : View.ld xNj rNj = xNj := View.ld_unit_zero hz2 _ xNj
  have eW : View.ld xW rW = xW := View.ld_unit_zero hz2 _ xW
  have eB : View.ld xB rB = xB := View.ld_unit_zero hz2 _ xB
  rw [eNj, eW, eB, eV]
  simp only [eNi, eS]

/-- The output block at any index `(a, b, d)`: whichever half row `a` is in, the same formula over the blocks. -/
theorem outBlk_at (xNi : Vec Ideal S128x256 .f32) (xNj : Vec Ideal S64x256 .f32) (xS xV : Vec Ideal S128x64x256 .f32)
    (xW : Vec Ideal S256x256 .f32) (xB : Vec Ideal S1x256 .f32) (a : Fin 128) (b : Fin 64) (d : Fin 256) :
    outBlk (F := Ideal) xNi xNj xS xV xW xB (ix3 a b d)
      = ((∑ k : Fin 256, ((xNi (ix2 a k) * xNj (ix2 b k)) * xS (ix3 a b k)) * xW (ix2 d k))
          + xB (ix2 (0 : Fin 1) d)) * xV (ix3 a b d) := by
  by_cases h : a.val < 64
  · exact outBlk_lo xNi xNj xS xV xW xB ⟨a.val, h⟩ b d
  · obtain ⟨a', rfl⟩ : ∃ a' : Fin 64, a = ⟨64 + a'.val, (Nat.add_lt_add_left a'.isLt 64 : 64 + a'.val < 128)⟩ :=
      ⟨⟨a.val - 64, by omega⟩, Fin.ext (by show a.val = 64 + (a.val - 64); omega)⟩
    exact outBlk_hi xNi xNj xS xV xW xB a' b d

/-! ## The input blocks, read off the launch arrays -/

variable (m : (ℓ : Loc nD τ sig) → Buf (Elt Ideal) ℓ)

/-- The printed index maps, decided over the grid's 32 points `t = 8 i + j`: the blocks of rows of n are `i` and `j`, the
    s, v and output blocks `(i, j, 0)`, W and the bias row block 0. -/
theorem idx_facts : ∀ t : Fin cfg0.N,
    win0_6.index t (0 : Fin 3) = t.val / 8 ∧ win0_6.index t (1 : Fin 3) = t.val % 8 ∧ win0_6.index t (2 : Fin 3) = 0
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The block of rows of n for `i`: row `a` is row `128 i + a` of n. -/
theorem iblk0_at (c : Dev nD) (t : Fin cfg0.N) (a : Fin 128) (k : Fin 256) (A : Fin 512)
    (hA : A.val = t.val / 8 * 128 + a.val) :
    (iblk (F := Ideal) m c 0 t : Vec Ideal S128x256 .f32) (ix2 a k)
      = (m ((c : Thread nD τ).loc main_arg0) : S512x256.Idx → EReal) (ix2 A k) := by
  obtain ⟨-, -, -, e0, e1, -⟩ := idx_facts t
  unfold iblk
  rw [View.read_apply]
  show V m c main_arg0 _ = m (c.tc.loc main_arg0) _
  rw [V_main_arg0]
  congr 1
  funext ax
  apply Fin.ext
  match ax with
  | ⟨0, _⟩ => show win0_0.index t 0 * 128 + 1 * a.val = A.val; rw [e0, hA]; omega
  | ⟨1, _⟩ => show win0_0.index t 1 * 256 + 1 * k.val = k.val; rw [e1]; omega

/-- The block of rows of n for `j`: row `b` is row `64 j + b` of n. -/
theorem iblk1_at (c : Dev nD) (t : Fin cfg0.N) (b : Fin 64) (k : Fin 256) (B : Fin 512)
    (hB : B.val = t.val % 8 * 64 + b.val) :
    (iblk (F := Ideal) m c 1 t : Vec Ideal S64x256 .f32) (ix2 b k)
      = (m ((c : Thread nD τ).loc main_arg0) : S512x256.Idx → EReal) (ix2 B k) := by
  obtain ⟨-, -, -, -, -, e0, e1, -⟩ := idx_facts t
  unfold iblk
  rw [View.read_apply]
  show V m c main_arg0 _ = m (c.tc.loc main_arg0) _
  rw [V_main_arg0]
  congr 1
  funext ax
  apply Fin.ext
  match ax with
  | ⟨0, _⟩ => show win0_1.index t 0 * 64 + 1 * b.val = B.val; rw [e0, hB]; omega
  | ⟨1, _⟩ => show win0_1.index t 1 * 256 + 1 * k.val = k.val; rw [e1]; omega

/-- The block of s: entry `(a, b, k)` is entry `(128 i + a, 64 j + b, k)` of s. -/
theorem iblk2_at (c : Dev nD) (t : Fin cfg0.N) (a : Fin 128) (b : Fin 64) (k : Fin 256) (A B : Fin 512)
    (hA : A.val = t.val / 8 * 128 + a.val) (hB : B.val = t.val % 8 * 64 + b.val) :
    (iblk (F := Ideal) m c 2 t : Vec Ideal S128x64x256 .f32) (ix3 a b k)
      = (m ((c : Thread nD τ).loc main_arg1) : S512x512x256.Idx → EReal) (ix3 A B k) := by
  obtain ⟨-, -, -, -, -, -, -, e0, e1, e2, -⟩ := idx_facts t
  unfold iblk
  rw [View.read_apply]
  show V m c main_arg1 _ = m (c.tc.loc main_arg1) _
  rw [V_main_arg1]
  congr 1
  funext ax
  apply Fin.ext
  match ax with
  | ⟨0, _⟩ => show win0_2.index t 0 * 128 + 1 * a.val = A.val; rw [e0, hA]; omega
  | ⟨1, _⟩ => show win0_2.index t 1 * 64 + 1 * b.val = B.val; rw [e1, hB]; omega
  | ⟨2, _⟩ => show win0_2.index t 2 * 256 + 1 * k.val = k.val; rw [e2]; omega

/-- The block of v, likewise. -/
theorem iblk3_at (c : Dev nD) (t : Fin cfg0.N) (a : Fin 128) (b : Fin 64) (k : Fin 256) (A B : Fin 512)
    (hA : A.val = t.val / 8 * 128 + a.val) (hB : B.val = t.val % 8 * 64 + b.val) :
    (iblk (F := Ideal) m c 3 t : Vec Ideal S128x64x256 .f32) (ix3 a b k)
      = (m ((c : Thread nD τ).loc main_arg2) : S512x512x256.Idx → EReal) (ix3 A B k) := by
  obtain ⟨-, -, -, -, -, -, -, -, -, -, e0, e1, e2, -⟩ := idx_facts t
  unfold iblk
  rw [View.read_apply]
  show V m c main_arg2 _ = m (c.tc.loc main_arg2) _
  rw [V_main_arg2]
  congr 1
  funext ax
  apply Fin.ext
  match ax with
  | ⟨0, _⟩ => show win0_3.index t 0 * 128 + 1 * a.val = A.val; rw [e0, hA]; omega
  | ⟨1, _⟩ => show win0_3.index t 1 * 64 + 1 * b.val = B.val; rw [e1, hB]; omega
  | ⟨2, _⟩ => show win0_3.index t 2 * 256 + 1 * k.val = k.val; rw [e2]; omega

/-- W is handed over whole. -/
theorem iblk4_at (c : Dev nD) (t : Fin cfg0.N) (d k : Fin 256) :
    (iblk (F := Ideal) m c 4 t : Vec Ideal S256x256 .f32) (ix2 d k)
      = (m ((c : Thread nD τ).loc main_arg3) : S256x256.Idx → EReal) (ix2 d k) := by
  obtain ⟨-, -, -, -, -, -, -, -, -, -, -, -, -, e0, e1, -⟩ := idx_facts t
  unfold iblk
  rw [View.read_apply]
  show V m c main_arg3 _ = m (c.tc.loc main_arg3) _
  rw [V_main_arg3]
  congr 1
  funext ax
  apply Fin.ext
  match ax with
  | ⟨0, _⟩ => show win0_4.index t 0 * 256 + 1 * d.val = d.val; rw [e0]; omega
  | ⟨1, _⟩ => show win0_4.index t 1 * 256 + 1 * k.val = k.val; rw [e1]; omega

/-- The bias row the region finds is the bias recast from [256] to [1, 256]. -/
theorem V_bias (c : Dev nD) :
    (V m c main_v0 : S1x256.Idx → EReal)
      = shapeCast S1x256 (m ((c : Thread nD τ).loc main_arg4) : S256.Idx → EReal) shapeCasts_S256_S1x256 := by
  dsimp only [V, hostOps0]
  after_results
  rfl

/-- The bias row is handed over whole: its entry `(0, d)` is entry `d` of the bias. -/
theorem iblk5_at (c : Dev nD) (t : Fin cfg0.N) (d : Fin 256) :
    (iblk (F := Ideal) m c 5 t : Vec Ideal S1x256 .f32) (ix2 (0 : Fin 1) d)
      = (m ((c : Thread nD τ).loc main_arg4) : S256.Idx → EReal) (ix1 d) := by
  obtain ⟨-, -, -, -, -, -, -, -, -, -, -, -, -, -, -, e0, e1⟩ := idx_facts t
  unfold iblk
  rw [View.read_apply]
  show V m c main_v0 _ = _
  have hi : ((cfg0.win 5).blk t).view.emb (ix2 (0 : Fin 1) d) = (ix2 (0 : Fin 1) d : S1x256.Idx) := by
    funext ax
    apply Fin.ext
    match ax with
    | ⟨0, _⟩ => show win0_5.index t 0 * 1 + 1 * 0 = 0; rw [e0]
    | ⟨1, _⟩ => show win0_5.index t 1 * 256 + 1 * d.val = d.val; rw [e1]; omega
  refine (congrArg (V m c main_v0 : S1x256.Idx → EReal) hi).trans ?_
  rw [V_bias]
  exact shapeCast_a_1a_apply _ _ (0 : Fin 1) d

/-! ## What a point writes back, and the whole array -/

/-- The gated linear map of the pairwise edge features, of the arrays core `c` was launched with. -/
abbrev launchSpec (c : Dev nD) : S512x512x256.Idx → EReal :=
  Cert.Edge.gatedEdgeLinear (m ((c : Thread nD τ).loc main_arg0)) (m ((c : Thread nD τ).loc main_arg1))
    (m ((c : Thread nD τ).loc main_arg2)) (m ((c : Thread nD τ).loc main_arg3)) (m ((c : Thread nD τ).loc main_arg4))

/-- Entry `(a, b, d)` of the output block of point `t = 8 i + j` sits at `(128 i + a, 64 j + b, d)` of the result. -/
theorem oblk_emb (t : Fin cfg0.N) (a : Fin 128) (b : Fin 64) (d : Fin 256) (A B : Fin 512)
    (hA : A.val = t.val / 8 * 128 + a.val) (hB : B.val = t.val % 8 * 64 + b.val) :
    ((cfg0.win 6).blk t).view.emb (ix3 a b d) = (ix3 A B d : S512x512x256.Idx) := by
  obtain ⟨e0, e1, e2, -⟩ := idx_facts t
  funext ax
  apply Fin.ext
  match ax with
  | ⟨0, _⟩ => show win0_6.index t 0 * 128 + 1 * a.val = A.val; rw [e0, hA]; omega
  | ⟨1, _⟩ => show win0_6.index t 1 * 64 + 1 * b.val = B.val; rw [e1, hB]; omega
  | ⟨2, _⟩ => show win0_6.index t 2 * 256 + 1 * d.val = d.val; rw [e2]; omega

/-- WHAT POINT `t` WRITES BACK is block `t` of the gated linear map of the launch arrays. -/
theorem flushed_eq (c : Dev nD) (t : Fin cfg0.N) :
    (dats (F := Ideal) m 0 c).flushed 6 t = ((cfg0.win 6).blk t).view.read (Elt Ideal) (launchSpec m c) := by
  show (cfg0.win 6).cut (grid0.coords t) ((dats (F := Ideal) m 0 c).after 6 t) = _
  rw [after6]
  funext y
  obtain ⟨a, b, d, rfl⟩ : ∃ (a : Fin 128) (b : Fin 64) (d : Fin 256), y = ix3 a b d :=
    ⟨y 0, y 1, y 2, eq_ix3 (n0 := 128) (n1 := 64) (n2 := 256) y⟩
  have hN : cfg0.N = 32 := N_0
  have ht := t.isLt
  have ha := a.isLt
  have hb := b.isLt
  have hA : t.val / 8 * 128 + a.val < 512 := by omega
  have hB : t.val % 8 * 64 + b.val < 512 := by omega
  rw [View.read_apply]
  show oblk m c t (ix3 a b d) = launchSpec m c (((cfg0.win 6).blk t).view.emb (ix3 a b d))
  rw [oblk_emb t a b d ⟨_, hA⟩ ⟨_, hB⟩ rfl rfl]
  unfold oblk
  refine (outBlk_at (iblk m c 0 t) (iblk m c 1 t) (iblk m c 2 t) (iblk m c 3 t) (iblk m c 4 t) (iblk m c 5 t) a b d).trans ?_
  unfold launchSpec
  rw [Cert.Edge.gatedEdgeLinear_at, iblk3_at m c t a b d ⟨_, hA⟩ ⟨_, hB⟩ rfl rfl, iblk5_at m c t d]
  refine congrArg (fun x => (x + _) * _) (Finset.sum_congr rfl fun k _ => ?_)
  rw [iblk0_at m c t a k ⟨_, hA⟩ rfl, iblk1_at m c t b k ⟨_, hB⟩ rfl, iblk2_at m c t a b k ⟨_, hA⟩ ⟨_, hB⟩ rfl rfl,
    iblk4_at m c t d k]

/-- An index of the result is in point `t`'s block iff each coordinate is in the block's range on its axis. -/
theorem mem_blk (t : Fin cfg0.N) (i : S512x512x256.Idx) :
    i ∈ ((cfg0.win 6).blk t).view.set ↔ ∀ a : Fin 3, win0_6.index t a * S128x64x256.size a ≤ (i a).val
      ∧ (i a).val < win0_6.index t a * S128x64x256.size a + S128x64x256.size a := by
  show i ∈ ((View.whole main_v1).slice (win0_6.rect t)).set ↔ _
  rw [View.set_slice_whole, Rect.mem_set_unit]
  exact Iff.rfl

/-- The 4 x 8 output blocks tile the result: `(x, y, z)` lies in the block of the point `8 (x / 128) + y / 64`. -/
theorem cover (i : S512x512x256.Idx) :
    ∃ t : Fin cfg0.N, (cfg0.win 6).flush t = true ∧ i ∈ ((cfg0.win 6).blk t).view.set := by
  have hN : cfg0.N = 32 := N_0
  have h0 : (i 0).val < 512 := (i 0).isLt
  have h1 : (i 1).val < 512 := (i 1).isLt
  have h2 : (i 2).val < 256 := (i 2).isLt
  obtain ⟨t, ht⟩ : ∃ t : Fin cfg0.N, t.val = 8 * ((i 0).val / 128) + (i 1).val / 64 := ⟨⟨_, by omega⟩, rfl⟩
  obtain ⟨e0, e1, e2, -⟩ := idx_facts t
  refine ⟨t, flush0_6 t, ?_⟩
  rw [mem_blk]
  intro ax
  match ax with
  | ⟨0, _⟩ =>
    show win0_6.index t 0 * 128 ≤ (i 0).val ∧ (i 0).val < win0_6.index t 0 * 128 + 128
    rw [e0, ht]; omega
  | ⟨1, _⟩ =>
    show win0_6.index t 1 * 64 ≤ (i 1).val ∧ (i 1).val < win0_6.index t 1 * 64 + 64
    rw [e1, ht]; omega
  | ⟨2, _⟩ =>
    show win0_6.index t 2 * 256 ≤ (i 2).val ∧ (i 2).val < win0_6.index t 2 * 256 + 256
    rw [e2]; omega

/-- THE RESULT ARRAY after the run is the gated linear map of the launch arrays. -/
theorem edge_final (c : Dev nD) : (dats (F := Ideal) m 0 c).arrAt 6 cfg0.N = launchSpec m c :=
  (dats (F := Ideal) m 0 c).arrAt_eq_of_cover 6 (launchSpec m c) (fun t _ => flushed_eq m c t) cover

end Cert.KernelIdeal.Edge

end
-- ==== Proof.RefIsSpec.lean ====
/-
  The reference computes the specification.

  The reference forms `n[a, k] * n[b, k]` by broadcasting the node features along a new middle axis and along a
  new leading axis, multiplies by the edge features, contracts the feature axis against axis 1 of `W`, adds the
  bias broadcast over all pairs, and multiplies by the gates. Read at an index `(a, b, d)`, each broadcast is
  its operand at the kept coordinates, the contraction is the sum over the feature coordinate `k`, and the
  pointwise operations act entry by entry, in the specification's own order; so the two agree term by term.
-/
import proofs.«177031_j41412074668753_2_alg».proof.Proof.Gen.ReferenceIdeal.Read
import proofs.«177031_j41412074668753_2_alg».proof.Proof.EdgeSpec

noncomputable section

namespace Cert.ReferenceIdeal.RefValue

open Cert.ReferenceIdeal Cert.ReferenceIdeal.Read Idealize.ShloMosaic Idealize.ShloMosaic.ValueIdx
open scoped BigOperators

/-- The reference's result is the gated linear map of the pairwise edge features. -/
theorem ref_is_spec (x0 : (⟨S512x256, .f32⟩ : BufTy).Contents (Elt Ideal))
    (x1 x2 : (⟨S512x512x256, .f32⟩ : BufTy).Contents (Elt Ideal))
    (x3 : (⟨S256x256, .f32⟩ : BufTy).Contents (Elt Ideal)) (x4 : (⟨S256, .f32⟩ : BufTy).Contents (Elt Ideal)) :
    Cert.ReferenceIdeal.Read.val_main_v10 (F := Ideal) x0 x1 x2 x3 x4 = Cert.Edge.gatedEdgeLinear x0 x1 x2 x3 x4 := by
  funext i
  obtain ⟨a, b, d, rfl⟩ : ∃ (a b : Fin 512) (d : Fin 256), i = ix3 a b d := ⟨i 0, i 1, i 2, eq_ix3 i⟩
  -- the operands' indices, by coordinates
  have eL : ∀ k : Fin 256, lidx_main_v6 (ix3 a b d) k = ix3 a b k := fun k =>
    funext fun ax => Fin.ext (by match ax with | ⟨0, _⟩ => rfl | ⟨1, _⟩ => rfl | ⟨2, _⟩ => rfl)
  have eR : ∀ k : Fin 256, ridx_main_v6 (ix3 a b d) k = ix2 d k := fun k =>
    funext fun ax => Fin.ext (by match ax with | ⟨0, _⟩ => rfl | ⟨1, _⟩ => rfl)
  have eA : ∀ k : Fin 256, idx_main_v0 (idx_main_v2 (ix3 a b k)) = ix2 a k := fun k =>
    funext fun ax => Fin.ext (by match ax with | ⟨0, _⟩ => rfl | ⟨1, _⟩ => rfl)
  have eB : ∀ k : Fin 256, idx_main_v1 (idx_main_v3 (ix3 a b k)) = ix2 b k := fun k =>
    funext fun ax => Fin.ext (by match ax with | ⟨0, _⟩ => rfl | ⟨1, _⟩ => rfl)
  have eC : idx_main_v7 (idx_main_v8 (ix3 a b d)) = ix1 d :=
    funext fun ax => Fin.ext (by match ax with | ⟨0, _⟩ => rfl)
  rw [Cert.Edge.gatedEdgeLinear_at, val_main_v10_apply, val_main_v9_apply, val_main_v6_apply, val_main_v8_apply,
    val_main_v7_apply]
  simp only [eL, eR, val_main_v5_apply, val_main_v4_apply, val_main_v2_apply, val_main_v3_apply,
    val_main_v0_apply, val_main_v1_apply, eA, eB, eC, Ideal.mulf_def, Ideal.addf_def]

end Cert.ReferenceIdeal.RefValue

end
-- ==== Proof.lean ====
/-
  The kernel computes, for node features n : [512, 256], edge features s, v : [512, 512, 256], a weight
  W : [256, 256] and a bias b : [256],
      out[a, b', d] = ( Σ_k ((n[a, k] * n[b', k]) * s[a, b', k]) * W[d, k]  +  b[d] ) * v[a, b', d],
  tile by tile over a 4 x 8 grid, each [128, 64, 256] tile in two halves; the reference computes the
  same expression on whole arrays. On the extended reals the two agree element by element: both form
  the same products in the same association and sum them over the same 256 indices k, so nothing beyond
  reading each side at an index is needed, and the inputs' finiteness is never used.

  The claims: each of the three programs runs to its end without a fault and leaves its argument arrays
  as launched; the idealized kernel is the printed kernel's own text read at the exact instance (no
  rewrite was applied); and the idealized kernel and the idealized reference end with equal results.
  The array n reaches the kernel through two windows, which hold it in two halves of the full share.
-/
import proofs.«177031_j41412074668753_2_alg».proof.Defs
import proofs.«177031_j41412074668753_2_alg».proof.Proof.Gen.Kernel
import proofs.«177031_j41412074668753_2_alg».proof.Proof.Gen.KernelIdeal
import proofs.«177031_j41412074668753_2_alg».proof.Proof.Gen.ReferenceIdeal
import proofs.«177031_j41412074668753_2_alg».proof.Proof.Gen.ReferenceIdeal.Read
import proofs.«177031_j41412074668753_2_alg».proof.Proof.Gen.Pre_finite_inputs
import proofs.«177031_j41412074668753_2_alg».proof.Proof.KEdgeRun
import proofs.«177031_j41412074668753_2_alg».proof.Proof.EdgeRun
import proofs.«177031_j41412074668753_2_alg».proof.Proof.EdgeFinal
import proofs.«177031_j41412074668753_2_alg».proof.Proof.RefIsSpec
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_k [Cert.Kernel.Facts] [Cert.Pre_finite_inputs.Facts] : Cert.frame_Kernel :=
  fun m ρ _ => Cert.Kernel.Edge.frame m ρ

/-- So does its idealization. -/
theorem frame_ki [Cert.KernelIdeal.Facts] [Cert.Pre_finite_inputs.Facts] : Cert.frame_KernelIdeal :=
  fun m ρ _ => Cert.KernelIdeal.Edge.frame m ρ

/-- The reference is eleven host operations in a row: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- No operation of the kernel was rewritten on the way to its idealization. -/
theorem preserves : Cert.preserves_Kernel_KernelIdeal := trivial

/-- Both idealized programs end with the result array at the one function of the argument arrays
    written at the top of this file: the kernel because each written-back tile is that function's
    restriction to the tile and the tiles cover the array, the reference by reading its eleven
    operations at an index. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Edge.gatedEdgeLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Edge.edge_final m c), (h c).2⟩)
      (Cert.KernelIdeal.Edge.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v10_eq _ _ _ _ _).trans (Cert.ReferenceIdeal.RefValue.ref_is_spec _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
